-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x400 : Shape := ⟨2, ![131072, 400]⟩
abbrev S100x100 : Shape := ⟨2, ![100, 100]⟩
abbrev S100 : Shape := ⟨1, ![100]⟩
abbrev S_ : Shape := ⟨0, ![]⟩

class Facts : Prop where
  bcast_S_S131072x400 : S_.BroadcastsInDim S131072x400 (![] : Fin 0 → Fin S131072x400.rank)
  reducesTo_S131072x400_S_d0_1 : S131072x400.ReducesTo [0, 1] S_
  h_S_ : 0 < S_.numel
  bcast_S_S100x100 : S_.BroadcastsInDim S100x100 (![] : Fin 0 → Fin S100x100.rank)
  reducesTo_S100x100_S_d0_1 : S100x100.ReducesTo [0, 1] S_
  bcast_S_S100 : S_.BroadcastsInDim S100 (![] : Fin 0 → Fin S100.rank)
  reducesTo_S100_S_d0 : S100.ReducesTo [0] S_

variable [Facts]

def fn {F : FTy → Type} [FloatOps F] (main_arg0 : FVec F S131072x400 .f32) (main_arg1 : FVec F S100x100 .f32) (main_arg2 : FVec F S100 .f32) : IVec S_ 1 :=
  let main_v0 : FVec F S131072x400 .f32 := Host.absf main_arg0
  let main_cst : FVec F S_ .f32 := constant S_ .f32 0x7F800000#32
  let main_v1 : FVec F S131072x400 .f32 := broadcastInDim S131072x400 ![] bcast_S_S131072x400 main_cst
  let main_v2 : IVec S131072x400 1 := cmpf .olt main_v0 main_v1
  let main_c : IVec S_ 1 := constantI S_ 1 1#1
  let main_v3 : IVec S_ 1 := (fun x v => Host.reduce IntOp.andi x v reducesTo_S131072x400_S_d0_1 h_S_) main_v2 main_c
  let main_v4 : FVec F S100x100 .f32 := Host.absf main_arg1
  let main_cst_0 : FVec F S_ .f32 := constant S_ .f32 0x7F800000#32
  let main_v5 : FVec F S100x100 .f32 := broadcastInDim S100x100 ![] bcast_S_S100x100 main_cst_0
  let main_v6 : IVec S100x100 1 := cmpf .olt main_v4 main_v5
  let main_c_1 : IVec S_ 1 := constantI S_ 1 1#1
  let main_v7 : IVec S_ 1 := (fun x v => Host.reduce IntOp.andi x v reducesTo_S100x100_S_d0_1 h_S_) main_v6 main_c_1
  let main_v8 : IVec S_ 1 := andi main_v3 main_v7
  let main_v9 : FVec F S100 .f32 := Host.absf main_arg2
  let main_cst_2 : FVec F S_ .f32 := constant S_ .f32 0x7F800000#32
  let main_v10 : FVec F S100 .f32 := broadcastInDim S100 ![] bcast_S_S100 main_cst_2
  let main_v11 : IVec S100 1 := cmpf .olt main_v9 main_v10
  let main_c_3 : IVec S_ 1 := constantI S_ 1 1#1
  let main_v12 : IVec S_ 1 := (fun x v => Host.reduce IntOp.andi x v reducesTo_S100_S_d0 h_S_) main_v11 main_c_3
  let main_v13 : IVec S_ 1 := andi main_v8 main_v12
  main_v13
-- ==== Kernel.lean ====
abbrev S131072x400 : Shape := ⟨2, ![131072, 400]⟩
abbrev S100x100 : Shape := ⟨2, ![100, 100]⟩
abbrev S100 : Shape := ⟨1, ![100]⟩
abbrev S2048x400 : Shape := ⟨2, ![2048, 400]⟩
abbrev S2048x100 : Shape := ⟨2, ![2048, 100]⟩
abbrev S1x100 : Shape := ⟨2, ![1, 100]⟩

abbrev nBuf : Space → Nat
  | .hbm => 4
  | .vmem => 6
  | .smem => 0
  | _ => 0

abbrev bufTy : (tb : Table) → Fin (tcTables nBuf tb) → BufTy
  | .hbm, ⟨0, _⟩ => ⟨S131072x400, .f32⟩
  | .hbm, ⟨1, _⟩ => ⟨S100x100, .f32⟩
  | .hbm, ⟨2, _⟩ => ⟨S100, .f32⟩
  | .hbm, ⟨3, _⟩ => ⟨S131072x400, .f32⟩
  | .local _ .vmem, ⟨0, _⟩ => ⟨S2048x400, .f32⟩
  | .local _ .vmem, ⟨1, _⟩ => ⟨S2048x400, .f32⟩
  | .local _ .vmem, ⟨2, _⟩ => ⟨S100x100, .f32⟩
  | .local _ .vmem, ⟨3, _⟩ => ⟨S100, .f32⟩
  | .local _ .vmem, ⟨4, _⟩ => ⟨S2048x400, .f32⟩
  | .local _ .vmem, ⟨5, _⟩ => ⟨S2048x400, .f32⟩
  | _, _ => ⟨S131072x400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S100x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x400 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S2048x400_S2048x400_0_0 : ∀ a, (![0, 0] : Fin 2 → Nat) a + S2048x400.size a ≤ S2048x400.size a
  h_S2048x400 : 0 < S2048x400.numel
  slices_S2048x400_o0_0_S2048x100 : S2048x400.Slices ![0, 0] S2048x100
  slices_S2048x400_o0_100_S2048x100 : S2048x400.Slices ![0, 100] S2048x100
  slices_S2048x400_o0_300_S2048x100 : S2048x400.Slices ![0, 300] S2048x100
  inb_S100_S100_0 : ∀ a, (![0] : Fin 1 → Nat) a + S100.size a ≤ S100.size a
  h_S100 : 0 < S100.numel
  inb_S100x100_S100x100_0_0 : ∀ a, (![0, 0] : Fin 2 → Nat) a + S100x100.size a ≤ S100x100.size a
  h_S100x100 : 0 < S100x100.numel
  shapeCasts_S100_S1x100 : S100.ShapeCasts S1x100
  broadcasts_S1x100_S2048x100 : S1x100.Broadcasts S2048x100
  bitsLt_bf16_f32 : FTy.bits .bf16 < FTy.bits .f32
  concatenates_S2048x100_S2048x100_S2048x100_S2048x100_S2048x400_d1 : Shape.Concatenates [S2048x100, S2048x100, S2048x100, S2048x100] S2048x400 1
  dot_S2048x100_S100x100_S2048x100_1_1_0_0_n_n_wf : DotDims.WF S2048x100 S100x100 S2048x100 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x400.size a ≤ S131072x400.size a
  hwx0_0 : ∀ i : grid0.Coords, EltTy.bits .f32 = 32 ∨ (Rect.block (s := S131072x400) S2048x400.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100x100.size a ≤ S100x100.size a
  hwx0_1 : ∀ i : grid0.Coords, EltTy.bits .f32 = 32 ∨ (Rect.block (s := S100x100) S100x100.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S100.size a ≤ S100.size a
  hwx0_2 : ∀ i : grid0.Coords, EltTy.bits .f32 = 32 ∨ (Rect.block (s := S100) S100.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x400.size a ≤ S131072x400.size a
  hwx0_3 : ∀ i : grid0.Coords, EltTy.bits .f32 = 32 ∨ (Rect.block (s := S131072x400) S2048x400.size (cc0_transform_3 i) (hinb0_3 i)).WholeWords (EltTy.packing .f32)

variable [Facts₀]

def dot_S2048x100_S100x100_S2048x100_1_1_0_0_n_n : DotDims S2048x100 S100x100 S2048x100 where
  lhsContracting := [1]
  rhsContracting := [1]
  lhsNonContracting := [0]
  rhsNonContracting := [0]
  lhsBatch := []
  rhsBatch := []
  wf := dot_S2048x100_S100x100_S2048x100_1_1_0_0_n_n_wf

abbrev win0_0 : Pipeline.Window sig grid0 :=
  Pipeline.Window.ofSpec (Memref.whole main_arg0) S2048x400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S100x100.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S100.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x400.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S131072x400 : Shape := ⟨2, ![131072, 400]⟩
abbrev S100x100 : Shape := ⟨2, ![100, 100]⟩
abbrev S100 : Shape := ⟨1, ![100]⟩
abbrev S131072x100 : Shape := ⟨2, ![131072, 100]⟩
abbrev S1x100 : Shape := ⟨2, ![1, 100]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S131072x400, .f32⟩
  | .hbm, ⟨1, _⟩ => ⟨S100x100, .f32⟩
  | .hbm, ⟨2, _⟩ => ⟨S100, .f32⟩
  | .hbm, ⟨3, _⟩ => ⟨S131072x100, .f32⟩
  | .hbm, ⟨4, _⟩ => ⟨S131072x100, .f32⟩
  | .hbm, ⟨5, _⟩ => ⟨S131072x100, .f32⟩
  | .hbm, ⟨6, _⟩ => ⟨S131072x100, .f32⟩
  | .hbm, ⟨7, _⟩ => ⟨S1x100, .f32⟩
  | .hbm, ⟨8, _⟩ => ⟨S131072x100, .f32⟩
  | .hbm, ⟨9, _⟩ => ⟨S131072x100, .f32⟩
  | .hbm, ⟨10, _⟩ => ⟨S131072x100, .f32⟩
  | .hbm, ⟨11, _⟩ => ⟨S131072x100, .f32⟩
  | .hbm, ⟨12, _⟩ => ⟨S131072x100, .f32⟩
  | .hbm, ⟨13, _⟩ => ⟨S_, .f32⟩
  | .hbm, ⟨14, _⟩ => ⟨S131072x100, .f32⟩
  | .hbm, ⟨15, _⟩ => ⟨S131072x100, .f32⟩
  | .hbm, ⟨16, _⟩ => ⟨S131072x100, .f32⟩
  | .hbm, ⟨17, _⟩ => ⟨S_, .f32⟩
  | .hbm, ⟨18, _⟩ => ⟨S131072x100, .f32⟩
  | .hbm, ⟨19, _⟩ => ⟨S131072x100, .f32⟩
  | .hbm, ⟨20, _⟩ => ⟨S100x100, .f32⟩
  | .hbm, ⟨21, _⟩ => ⟨S131072x100, .f32⟩
  | .hbm, ⟨22, _⟩ => ⟨S131072x100, .f32⟩
  | .hbm, ⟨23, _⟩ => ⟨S131072x100, .f32⟩
  | .hbm, ⟨24, _⟩ => ⟨S131072x100, .f32⟩
  | .hbm, ⟨25, _⟩ => ⟨S_, .f32⟩
  | .hbm, ⟨26, _⟩ => ⟨S131072x100, .f32⟩
  | .hbm, ⟨27, _⟩ => ⟨S131072x100, .f32⟩
  | .hbm, ⟨28, _⟩ => ⟨S131072x400, .f32⟩
  | _, _ => ⟨S131072x400, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]

class Facts₀ : Prop where
  slices_S131072x400_S131072x100_0_0 : S131072x400.Slices ![0, 0] S131072x100
  slices_S131072x400_S131072x100_0_100 : S131072x400.Slices ![0, 100] S131072x100
  slices_S131072x400_S131072x100_0_300 : S131072x400.Slices ![0, 300] S131072x100
  bcast_S100_S1x100_1 : S100.BroadcastsInDim S1x100 (![1] : Fin 1 → Fin S1x100.rank)
  bcast_S1x100_S131072x100_0_1 : S1x100.BroadcastsInDim S131072x100 (![0, 1] : Fin 2 → Fin S131072x100.rank)
  bcast_S_S131072x100 : S_.BroadcastsInDim S131072x100 (![] : Fin 0 → Fin S131072x100.rank)
  transposes_S100x100_S100x100_1_0 : S100x100.Transposes [1, 0] S100x100
  concatenates_S131072x100_S131072x100_S131072x100_S131072x100_S131072x400_d1 : Shape.Concatenates [S131072x100, S131072x100, S131072x100, S131072x100] S131072x400 1
  dot_S131072x100_S100x100_S131072x100_1_0_0_1_n_n_wf : DotDims.WF S131072x100 S100x100 S131072x100 [1] [0] [0] [1] [] []

variable [Facts₀]

def dot_S131072x100_S100x100_S131072x100_1_0_0_1_n_n : DotDims S131072x100 S100x100 S131072x100 where
  lhsContracting := [1]
  rhsContracting := [0]
  lhsNonContracting := [0]
  rhsNonContracting := [1]
  lhsBatch := []
  rhsBatch := []
  wf := dot_S131072x100_S100x100_S131072x100_1_0_0_1_n_n_wf

class Facts : Prop extends Facts₀ where

variable [Facts]
-- ==== Proof.LibRowDot.lean ====
/-
  A plain two-dimensional product read one entry at a time, at the exact (extended-real) values.

  For the dimension numbers of an M×K by K×N product (contract the left operand's axis 1 with the right
  operand's axis 0, no batch axis) the contraction's index set is one axis of extent K, so the entry (p, q) of the
  product is the sum over k < K of  l(p, k) · r(k, q):  row p of the left operand times the matrix r, at
  column q.  Stated once for every M, K, N, for the vector unit's matrix product into a zero accumulator and for
  the host's dot_general; both are that same sum, so a product computed block of rows by block of rows and a
  product computed whole agree entry by entry.
-/
import Idealize.ShloMosaic.Lib.ValueIdx
import Idealize.ShloMosaic.PureOps.Ideal.Laws

noncomputable section

open scoped BigOperators

namespace Cert.RowDot

open Idealize.ShloMosaic Idealize.ShloMosaic.ValueIdx

/-- Entry q of (row · W) for a K×N matrix W:  the sum over k of row(k) · W(k, q). -/
def rowDot {K N : Nat} (row : Fin K → EReal) (W : (⟨2, ![K, N]⟩ : Shape).Idx → EReal) (q : Fin N) : EReal :=
  ∑ k : Fin K, row k * W (ix2 k q)

/-- Row p of an M×K array, as a function of the column. -/
def rowOf {M K : Nat} (x : (⟨2, ![M, K]⟩ : Shape).Idx → EReal) (p : Fin M) : Fin K → EReal := fun k => x (ix2 p k)

/-- The contraction shape of a plain product is one axis. -/
theorem plain_rank (M K N : Nat) : (DotDims.plain M K N).contr.rank = 1 := rfl

/-- The left operand's index at output index j and contraction position u keeps j's row. -/
theorem plain_lhs0 {M K N : Nat} (j : (⟨2, ![M, N]⟩ : Shape).Idx) (u : (DotDims.plain M K N).contr.Idx) :
    ((DotDims.plain M K N).lhsIdx j u 0).val = (j 0).val := by
  unfold DotDims.lhsIdx
  rw [dif_neg (show ¬((0 : Fin (⟨2, ![M, K]⟩ : Shape).rank) ∈ (DotDims.plain M K N).lhsBatch) from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs1 {M K N : Nat} (j : (⟨2, ![M, N]⟩ : Shape).Idx) (u : (DotDims.plain M K N).contr.Idx) :
    ((DotDims.plain M K N).lhsIdx j u 1).val = (u ⟨0, by rw [plain_rank]; exact Nat.one_pos⟩).val :=
  (DotDims.plain M K N).lhsIdx_val_of_single rfl j u

/-- The right operand's row is the contraction position. -/
theorem plain_rhs0 {M K N : Nat} (j : (⟨2, ![M, N]⟩ : Shape).Idx) (u : (DotDims.plain M K N).contr.Idx) :
    ((DotDims.plain M K N).rhsIdx j u 0).val = (u ⟨0, by rw [plain_rank]; exact Nat.one_pos⟩).val :=
  (DotDims.plain M K N).rhsIdx_val_of_single rfl j u

/-- The right operand's index keeps j's column. -/
theorem plain_rhs1 {M K N : Nat} (j : (⟨2, ![M, N]⟩ : Shape).Idx) (u : (DotDims.plain M K N).contr.Idx) :
    ((DotDims.plain M K N).rhsIdx j u 1).val = (j 1).val := by
  unfold DotDims.rhsIdx
  rw [dif_neg (show ¬((1 : Fin (⟨2, ![K, N]⟩ : Shape).rank) ∈ (DotDims.plain M K N).rhsBatch) from List.not_mem_nil),
    dif_pos (show (1 : Fin (⟨2, ![K, N]⟩ : Shape).rank) ∈ (DotDims.plain M K N).rhsNonContracting from List.mem_singleton.mpr rfl)]
  rfl

/-- The contraction's sum of a plain product, re-indexed by k < K: row (j 0) of l times r, at column (j 1). -/
theorem plain_contr_sum {M K N : Nat} (l : (⟨2, ![M, K]⟩ : Shape).Idx → EReal) (r : (⟨2, ![K, N]⟩ : Shape).Idx → EReal)
    (j : (⟨2, ![M, N]⟩ : Shape).Idx) :
    ∑ u : (DotDims.plain M K N).contr.Idx, l ((DotDims.plain M K N).lhsIdx j u) * r ((DotDims.plain M K N).rhsIdx j u)
      = rowDot (rowOf l (j 0)) r (j 1) := by
  unfold rowDot rowOf
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact plain_lhs0 j _
      | ⟨1, _⟩ => exact (plain_lhs1 j _).trans hk)
  have er : (DotDims.plain M K N).rhsIdx j ((contrEquiv1 (DotDims.plain M K N) K rfl rfl).symm k) = ix2 k (j 1) :=
    funext fun a => Fin.ext (by
      match a with
      | ⟨0, _⟩ => exact (plain_rhs0 j _).trans hk
      | ⟨1, _⟩ => exact plain_rhs1 j _)
  exact congrArg₂ (fun a b : EReal => a * b) (congrArg l el) (congrArg r er)

/-- The vector unit's matrix product into the zero accumulator, at an entry. -/
theorem matmul_plain_zero_apply {M K N : Nat} {φ₁ φ₂ : FTy} (prec : Option ContractPrecision)
    (lhs : FVec Ideal (⟨2, ![M, K]⟩ : Shape) φ₁) (rhs : FVec Ideal (⟨2, ![K, N]⟩ : Shape) φ₂) (j : (⟨2, ![M, N]⟩ : Shape).Idx) :
    FloatOps.matmul (DotDims.plain M K N) prec lhs rhs (constant (F := Ideal) (⟨2, ![M, N]⟩ : Shape) .f32 0x00000000#32) j
      = rowDot (rowOf lhs (j 0)) rhs (j 1) := by
  rw [Ideal.matmul_constant_zero_apply]
  exact plain_contr_sum lhs rhs j

/-- The host's dot_general, at an entry. -/
theorem dotGeneral_plain_apply {M K N : Nat} {φ₁ φ₂ : FTy} (prec : Option ContractPrecision) (sched : HostSchedule)
    (lhs : FVec Ideal (⟨2, ![M, K]⟩ : Shape) φ₁) (rhs : FVec Ideal (⟨2, ![K, N]⟩ : Shape) φ₂) (j : (⟨2, ![M, N]⟩ : Shape).Idx) :
    FloatOps.dotGeneral (DotDims.plain M K N) prec sched lhs rhs j = rowDot (rowOf lhs (j 0)) rhs (j 1) := by
  rw [Ideal.dotGeneral_apply]
  exact plain_contr_sum lhs rhs j

end Cert.RowDot

end
-- ==== Proof.LibGatedMix.lean ====
/-
  A thresholded-logistic mixture of the rows of a small table, read one entry at a time at the exact
  (extended-real) values.

  x is an M×D array and W a T×D table.  Row p of x is scored against every row of W,
      s(p, t) = Σ_d x(p, d) · W(t, d),
  each score becomes a weight  g(s) = logistic(s),  replaced by z wherever logistic(s) < θ,  and the weighted
  rows of W are added back onto x:
      mix(x, W)(p, q) = x(p, q) + Σ_t g(s(p, t)) · W(t, q).
  Entry (p, q) sees x only through its row p.  So the mixture of a block of rows is the same block of the
  mixture of the whole array, and a computation done block of rows by block of rows agrees with one done whole.

  Two spellings of this function are identified with it, for every M, D, T:  the vector unit's (a product with the
  table contracted on its last axis into a zero accumulator, the logistic operation, a compare-and-select against
  splat scalars, a plain product into a zero accumulator, an add), and the host's (two dot_generals, the
  logistic spelt 1 / (1 + exp(−s)) over arrays that hold 1 everywhere, a compare-and-select against arrays that
  hold θ and z everywhere, an add).  Both products are plain finite sums over the extended reals and nothing here
  moves a factor across a sum, so no finiteness of the entries is used.
-/
import Idealize.ShloMosaic.Lib.ValueIdx
import Idealize.ShloMosaic.PureOps.Ideal.Laws
import proofs.«124264_j2465311228659_1_alg».proof.Proof.LibRowDot

noncomputable section

open scoped BigOperators

namespace Cert.GatedMix

open Idealize.ShloMosaic Idealize.ShloMosaic.ValueIdx Cert.RowDot

/-! ## A product with the right operand contracted on its last axis -/

/-- Entry t of (row · Wᵀ) for a T×D matrix W:  the sum over d of row(d) · W(t, d). -/
def rowDotT {D T : Nat} (row : Fin D → EReal) (W : (⟨2, ![T, D]⟩ : Shape).Idx → EReal) (t : Fin T) : EReal :=
  ∑ d : Fin D, row d * W (ix2 t d)

/-- The contraction shape of such a product is one axis. -/
theorem transposed_rank (M K N : Nat) : (DotDims.transposedRhs M K N).contr.rank = 1 := rfl

/-- The left operand's index at output index j keeps j's row. -/
theorem transposed_lhs0 {M K N : Nat} (j : (⟨2, ![M, N]⟩ : Shape).Idx) (u : (DotDims.transposedRhs M K N).contr.Idx) :
    ((DotDims.transposedRhs M K N).lhsIdx j u 0).val = (j 0).val := by
  unfold DotDims.lhsIdx
  rw [dif_neg (show ¬((0 : Fin (⟨2, ![M, K]⟩ : Shape).rank) ∈ (DotDims.transposedRhs M K N).lhsBatch) from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem transposed_lhs1 {M K N : Nat} (j : (⟨2, ![M, N]⟩ : Shape).Idx) (u : (DotDims.transposedRhs M K N).contr.Idx) :
    ((DotDims.transposedRhs M K N).lhsIdx j u 1).val = (u ⟨0, by rw [transposed_rank]; exact Nat.one_pos⟩).val :=
  (DotDims.transposedRhs M K N).lhsIdx_val_of_single rfl j u

/-- The right operand's row is j's column. -/
theorem transposed_rhs0 {M K N : Nat} (j : (⟨2, ![M, N]⟩ : Shape).Idx) (u : (DotDims.transposedRhs M K N).contr.Idx) :
    ((DotDims.transposedRhs M K N).rhsIdx j u 0).val = (j 1).val := by
  unfold DotDims.rhsIdx
  rw [dif_neg (show ¬((0 : Fin (⟨2, ![N, K]⟩ : Shape).rank) ∈ (DotDims.transposedRhs M K N).rhsBatch) from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem transposed_rhs1 {M K N : Nat} (j : (⟨2, ![M, N]⟩ : Shape).Idx) (u : (DotDims.transposedRhs M K N).contr.Idx) :
    ((DotDims.transposedRhs M K N).rhsIdx j u 1).val = (u ⟨0, by rw [transposed_rank]; exact Nat.one_pos⟩).val :=
  (DotDims.transposedRhs M K N).rhsIdx_val_of_single rfl j u

/-- The contraction's sum, re-indexed by k < K: row (j 0) of l against row (j 1) of r. -/
theorem transposed_contr_sum {M K N : Nat} (l : (⟨2, ![M, K]⟩ : Shape).Idx → EReal) (r : (⟨2, ![N, K]⟩ : Shape).Idx → EReal)
    (j : (⟨2, ![M, N]⟩ : Shape).Idx) :
    ∑ u : (DotDims.transposedRhs M K N).contr.Idx,
        l ((DotDims.transposedRhs M K N).lhsIdx j u) * r ((DotDims.transposedRhs M K N).rhsIdx j u)
      = rowDotT (rowOf l (j 0)) r (j 1) := by
  unfold rowDotT rowOf
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx j ((contrEquiv1 (DotDims.transposedRhs M K N) K rfl rfl).symm k) = ix2 (j 0) k :=
    funext fun a => Fin.ext (by
      match a with
      | ⟨0, _⟩ => exact transposed_lhs0 j _
      | ⟨1, _⟩ => exact (transposed_lhs1 j _).trans hk)
  have er : (DotDims.transposedRhs M K N).rhsIdx j ((contrEquiv1 (DotDims.transposedRhs M K N) K rfl rfl).symm k) = ix2 (j 1) k :=
    funext fun a => Fin.ext (by
      match a with
      | ⟨0, _⟩ => exact transposed_rhs0 j _
      | ⟨1, _⟩ => exact (transposed_rhs1 j _).trans hk)
  exact congrArg₂ (fun a b : EReal => a * b) (congrArg l el) (congrArg r er)

/-- The vector unit's product into the zero accumulator, at an entry. -/
theorem matmul_transposed_zero_apply {M K N : Nat} {φ₁ φ₂ : FTy} (prec : Option ContractPrecision)
    (lhs : FVec Ideal (⟨2, ![M, K]⟩ : Shape) φ₁) (rhs : FVec Ideal (⟨2, ![N, K]⟩ : Shape) φ₂) (j : (⟨2, ![M, N]⟩ : Shape).Idx) :
    FloatOps.matmul (DotDims.transposedRhs M K N) prec lhs rhs (constant (F := Ideal) (⟨2, ![M, N]⟩ : Shape) .f32 0x00000000#32) j
      = rowDotT (rowOf lhs (j 0)) rhs (j 1) := by
  rw [Ideal.matmul_constant_zero_apply]
  exact transposed_contr_sum lhs rhs j

/-- The host's dot_general, at an entry. -/
theorem dotGeneral_transposed_apply {M K N : Nat} {φ₁ φ₂ : FTy} (prec : Option ContractPrecision) (sched : HostSchedule)
    (lhs : FVec Ideal (⟨2, ![M, K]⟩ : Shape) φ₁) (rhs : FVec Ideal (⟨2, ![N, K]⟩ : Shape) φ₂) (j : (⟨2, ![M, N]⟩ : Shape).Idx) :
    FloatOps.dotGeneral (DotDims.transposedRhs M K N) prec sched lhs rhs j = rowDotT (rowOf lhs (j 0)) rhs (j 1) := by
  rw [Ideal.dotGeneral_apply]
  exact transposed_contr_sum lhs rhs j

/-! ## The mixture -/

/-- The weight of a score: its logistic, replaced by z where that is strictly below θ. -/
def gate (θ z s : EReal) : EReal :=
  Scalar.select (FloatOps.cmpf (F := Ideal) (φ := .f32) .olt (Ideal.logistic s) θ) z (Ideal.logistic s)

/-- One row of the mixture: the row plus the table's rows weighted by the gated scores of the row. -/
def mixRow {D T : Nat} (θ z : EReal) (row : Fin D → EReal) (W : (⟨2, ![T, D]⟩ : Shape).Idx → EReal) (q : Fin D) : EReal :=
  row q + ∑ t : Fin T, gate θ z (rowDotT row W t) * W (ix2 t q)

/-- The mixture of an M×D array with a T×D table: entry (p, q) is entry q of the mixture of row p. -/
def mix {M D T : Nat} (θ z : EReal) (x : (⟨2, ![M, D]⟩ : Shape).Idx → EReal) (W : (⟨2, ![T, D]⟩ : Shape).Idx → EReal) :
    (⟨2, ![M, D]⟩ : Shape).Idx → EReal :=
  fun j => mixRow θ z (rowOf x (j 0)) W (j 1)

/-- Entry (p, q) of the mixture depends on x through row p only: if row p' of x' is row p of x, the entries agree. -/
theorem mix_rows {M M' D T : Nat} (θ z : EReal) (x : (⟨2, ![M, D]⟩ : Shape).Idx → EReal) (x' : (⟨2, ![M', D]⟩ : Shape).Idx → EReal)
    (W : (⟨2, ![T, D]⟩ : Shape).Idx → EReal) (p : Fin M) (p' : Fin M') (q : Fin D)
    (h : ∀ d : Fin D, x' (ix2 p' d) = x (ix2 p d)) :
    mix θ z x' W (ix2 p' q) = mix θ z x W (ix2 p q) := by
  have hr : rowOf x' p' = rowOf x p := funext h
  show mixRow θ z (rowOf x' p') W q = mixRow θ z (rowOf x p) W q
  rw [hr]

/-- The same for whole indices: entry y of the mixture of x' is entry i of the mixture of x when row (y 0) of x' is row
    (i 0) of x and the two indices name the same column. -/
theorem mix_block {M M' D T : Nat} (θ z : EReal) (x : (⟨2, ![M, D]⟩ : Shape).Idx → EReal) (x' : (⟨2, ![M', D]⟩ : Shape).Idx → EReal)
    (W : (⟨2, ![T, D]⟩ : Shape).Idx → EReal) (y : (⟨2, ![M', D]⟩ : Shape).Idx) (i : (⟨2, ![M, D]⟩ : Shape).Idx)
    (hrow : ∀ d : Fin D, x' (ix2 (y 0) d) = x (ix2 (i 0) d)) (hcol : (i 1).val = (y 1).val) :
    mix θ z x' W y = mix θ z x W i := by
  have e0 : rowOf x' (y 0) = rowOf x (i 0) := funext hrow
  have e1 : (y 1 : Fin D) = (i 1 : Fin D) := Fin.ext hcol.symm
  show mixRow θ z (rowOf x' (y 0)) W (y 1) = mixRow θ z (rowOf x (i 0)) W (i 1)
  exact congrArg₂ (fun (r : Fin D → EReal) (q : Fin D) => mixRow θ z r W q) e0 e1

/-! ## The vector unit's spelling -/

/-- A product contracted on the table's last axis into zero, the logistic, the compare-and-select against two splat
    scalars, a plain product with the table into zero, and the add: the mixture, with θ and z the two words' values. -/
theorem vector_form {M D T : Nat} (p₁ p₂ : Option ContractPrecision) (θw zw : BitVec 32)
    (x : FVec Ideal (⟨2, ![M, D]⟩ : Shape) .f32) (W : FVec Ideal (⟨2, ![T, D]⟩ : Shape) .f32) :
    addf x (matmul (DotDims.plain M T D) p₂
        (select
          (cmpf .olt
            (logistic (matmul (DotDims.transposedRhs M D T) p₁ x W (constant (⟨2, ![M, T]⟩ : Shape) .f32 0x00000000#32)))
            (broadcast (⟨2, ![M, T]⟩ : Shape) (Scalar.ofBits (F := Ideal) .f32 θw)))
          (broadcast (⟨2, ![M, T]⟩ : Shape) (Scalar.ofBits (F := Ideal) .f32 zw))
          (logistic (matmul (DotDims.transposedRhs M D T) p₁ x W (constant (⟨2, ![M, T]⟩ : Shape) .f32 0x00000000#32))))
        W (constant (⟨2, ![M, D]⟩ : Shape) .f32 0x00000000#32))
      = mix (Ideal.ofBits .f32 θw) (Ideal.ofBits .f32 zw) x W := by
  funext j
  obtain ⟨p, q, rfl⟩ : ∃ (p : Fin M) (q : Fin D), j = ix2 p q := ⟨j 0, j 1, eq_ix2 j⟩
  rw [addf_apply]
  refine congrArg (x (ix2 p q) + ·) ?_
  refine (matmul_plain_zero_apply p₂ _ W (ix2 p q)).trans ?_
  refine Finset.sum_congr rfl fun t _ => ?_
  refine congrArg (· * W (ix2 t q)) ?_
  show Scalar.select (FloatOps.cmpf .olt (Ideal.logistic (FloatOps.matmul (DotDims.transposedRhs M D T) p₁ x W
      (constant (F := Ideal) (⟨2, ![M, T]⟩ : Shape) .f32 0x00000000#32) (ix2 p t))) (Ideal.ofBits .f32 θw)) (Ideal.ofBits .f32 zw)
      (Ideal.logistic (FloatOps.matmul (DotDims.transposedRhs M D T) p₁ x W
      (constant (F := Ideal) (⟨2, ![M, T]⟩ : Shape) .f32 0x00000000#32) (ix2 p t))) = _
  rw [matmul_transposed_zero_apply]
  rfl

/-! ## The host's spelling -/

/-- The f32 word of 1.0 is the number 1. -/
theorem one_word : Ideal.ofBits .f32 0x3F800000#32 = 1 := by
  simp [Ideal.ofBits, Ideal.ieee, -EReal.coe_mul]; norm_num

/-- Two dot_generals, the logistic spelt 1 / (1 + exp(−s)) over arrays that are 1 everywhere, the compare-and-select
    against arrays that are θ and z everywhere, and the add: the mixture. -/
theorem host_form {M D T : Nat} (p₁ p₂ : Option ContractPrecision) (θ z : EReal)
    (x : FVec Ideal (⟨2, ![M, D]⟩ : Shape) .f32) (W : FVec Ideal (⟨2, ![T, D]⟩ : Shape) .f32)
    (one one' θv zv : FVec Ideal (⟨2, ![M, T]⟩ : Shape) .f32)
    (h1 : ∀ i, one i = 1) (h1' : ∀ i, one' i = 1) (hθ : ∀ i, θv i = θ) (hz : ∀ i, zv i = z) :
    addf x (Host.dotGeneral (DotDims.plain M T D) p₂
        (select
          (cmpf .olt
            (Host.divf one (addf one' (Host.exp (Host.negf (Host.dotGeneral (DotDims.transposedRhs M D T) p₁ x W)))))
            θv)
          zv
          (Host.divf one (addf one' (Host.exp (Host.negf (Host.dotGeneral (DotDims.transposedRhs M D T) p₁ x W))))))
        W)
      = mix θ z x W := by
  funext j
  obtain ⟨p, q, rfl⟩ : ∃ (p : Fin M) (q : Fin D), j = ix2 p q := ⟨j 0, j 1, eq_ix2 j⟩
  rw [addf_apply]
  refine congrArg (x (ix2 p q) + ·) ?_
  refine (dotGeneral_plain_apply p₂ .single _ W (ix2 p q)).trans ?_
  refine Finset.sum_congr rfl fun t _ => ?_
  refine congrArg (· * W (ix2 t q)) ?_
  show Scalar.select (FloatOps.cmpf .olt
      (FloatOps.hostDivf (one (ix2 p t)) (FloatOps.addf (one' (ix2 p t)) (FloatOps.hostUnary .exp (FloatOps.hostNegf
        (FloatOps.dotGeneral (DotDims.transposedRhs M D T) p₁ .single x W (ix2 p t))))))
      (θv (ix2 p t))) (zv (ix2 p t))
      (FloatOps.hostDivf (one (ix2 p t)) (FloatOps.addf (one' (ix2 p t)) (FloatOps.hostUnary .exp (FloatOps.hostNegf
        (FloatOps.dotGeneral (DotDims.transposedRhs M D T) p₁ .single x W (ix2 p t)))))) = _
  rw [dotGeneral_transposed_apply, h1, h1', hθ, hz]
  rfl

end Cert.GatedMix

end
-- ==== Proof.Drift.lean ====
/-
  The drift of a bank of saturating units, one system per row, read one entry at a time at the exact
  (extended-real) values.

  A row of the state holds four runs of 100 numbers: the units' positions x, their estimation errors e, an unused
  run, and their control gains w.  With a 100×100 coupling matrix A and a target vector g, each unit's saturation is
      s(k) = x(k)² / (1 + x(k)²),
  its control signal
      u(q) = w(q) · ((x(q) + e(q)) − g(q)),
  and its drift
      dx(q) = (−1 · x(q) + Σ_k s(k) · A(q, k)) + u(q) · s(q).
  The output row is the drift, its negation, and two runs of zeros:  [dx, −dx, 0, 0].

  Entry (p, c) of the output sees the state only through its row p.  So the field of a block of rows is the same
  block of the field of the whole array, and a computation done block of rows by block of rows agrees with one done
  whole.

  Two spellings of the drift are identified with it, for every number of rows M: the vector unit's (a product with A
  contracted on A's last axis into a zero accumulator, its operands narrowed to bf16 — the identity on exact values —,
  the constants splat) and the host's (A transposed and a plain dot_general, the constants as arrays that hold one
  value everywhere).  The product is a finite sum over the extended reals read in the same order on both sides and no
  factor is moved across it, so no finiteness of the entries is used; the negation is 0 − dx on one side and −dx on
  the other, equal at the infinities too.
-/
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws
import proofs.«124264_j2465311228659_1_alg».proof.Proof.LibGatedMix

noncomputable section

open scoped BigOperators

namespace Cert.Drift

open Idealize.ShloMosaic Idealize.ShloMosaic.ValueIdx Cert.RowDot Cert.GatedMix

/-! ## The three constants, kept as the words that denote them -/

/-- The f32 word of 1.0. -/
abbrev one : EReal := Ideal.ofBits .f32 0x3F800000#32
/-- The f32 word of −1.0. -/
abbrev negOne : EReal := Ideal.ofBits .f32 0xBF800000#32
/-- The f32 word of 0.0. -/
abbrev zero : EReal := Ideal.ofBits .f32 0x00000000#32

/-! ## One row -/

/-- The saturation x² / (1 + x²). -/
def sat (x : EReal) : EReal := Ideal.div (x * x) (one + x * x)

/-- The drift of unit q from the row's positions X, errors E, gains W, the targets T and the coupling A. -/
def drift (X E W T : Fin 100 → EReal) (A : (⟨2, ![100, 100]⟩ : Shape).Idx → EReal) (q : Fin 100) : EReal :=
  (negOne * X q + rowDotT (fun k => sat (X k)) A q) + (W q * ((X q + E q) - T q)) * sat (X q)

/-- The run of 100 entries of a row of 400 that starts at column o. -/
def seg (o : Nat) (ho : o + 100 ≤ 400) (row : Fin 400 → EReal) : Fin 100 → EReal :=
  fun k => row ⟨o + k.val, by have := k.isLt; omega⟩

/-- The drift of a state row: positions at columns 0–99, errors at 100–199, gains at 300–399. -/
def rowDrift (row : Fin 400 → EReal) (A : (⟨2, ![100, 100]⟩ : Shape).Idx → EReal) (T : Fin 100 → EReal) : Fin 100 → EReal :=
  drift (seg 0 (by norm_num) row) (seg 100 (by norm_num) row) (seg 300 (by norm_num) row) T A

/-- The output row [dx, −dx, 0, 0] at column c: run c / 100, entry c mod 100. -/
def fieldRow (row : Fin 400 → EReal) (A : (⟨2, ![100, 100]⟩ : Shape).Idx → EReal) (T : Fin 100 → EReal) (c : Fin 400) : EReal :=
  if c.val / 100 = 0 then rowDrift row A T ⟨c.val % 100, Nat.mod_lt _ (by norm_num)⟩
  else if c.val / 100 = 1 then -(rowDrift row A T ⟨c.val % 100, Nat.mod_lt _ (by norm_num)⟩)
  else zero

/-! ## The whole array -/

/-- The output array of an M-row state: entry (p, c) is entry c of the output row of state row p. -/
def field {M : Nat} (state : (⟨2, ![M, 400]⟩ : Shape).Idx → EReal) (A : (⟨2, ![100, 100]⟩ : Shape).Idx → EReal)
    (g : (⟨1, ![100]⟩ : Shape).Idx → EReal) : (⟨2, ![M, 400]⟩ : Shape).Idx → EReal :=
  fun j => fieldRow (rowOf state (j 0)) A (fun k => g (ix1 k)) (j 1)

/-- Entry y of the field of x' is entry i of the field of x when row (y 0) of x' is row (i 0) of x and the two indices
    name the same column. -/
theorem field_block {M M' : Nat} (x : (⟨2, ![M, 400]⟩ : Shape).Idx → EReal) (x' : (⟨2, ![M', 400]⟩ : Shape).Idx → EReal)
    (A : (⟨2, ![100, 100]⟩ : Shape).Idx → EReal) (g : (⟨1, ![100]⟩ : Shape).Idx → EReal)
    (y : (⟨2, ![M', 400]⟩ : Shape).Idx) (i : (⟨2, ![M, 400]⟩ : Shape).Idx)
    (hrow : ∀ d : Fin 400, x' (ix2 (y 0) d) = x (ix2 (i 0) d)) (hcol : (i 1).val = (y 1).val) :
    field x' A g y = field x A g i := by
  have e0 : rowOf x' (y 0) = rowOf x (i 0) := funext hrow
  have e1 : (y 1 : Fin 400) = (i 1 : Fin 400) := Fin.ext hcol.symm
  show fieldRow (rowOf x' (y 0)) A (fun k => g (ix1 k)) (y 1) = fieldRow (rowOf x (i 0)) A (fun k => g (ix1 k)) (i 1)
  exact congrArg₂ (fun (r : Fin 400 → EReal) (c : Fin 400) => fieldRow r A (fun k => g (ix1 k)) c) e0 e1

/-! ## Layout: a run of columns cut out of the state, and the four runs laid side by side -/

/-- Row p of the 100 columns of an M×400 array from column o on is that run of row p. -/
theorem rowOf_slice {M : Nat} (o : Nat) (ho : o + 100 ≤ 400) (x : (⟨2, ![M, 400]⟩ : Shape).Idx → EReal)
    (h : (⟨2, ![M, 400]⟩ : Shape).Slices ![0, o] ⟨2, ![M, 100]⟩) (p : Fin M) :
    rowOf (extractStridedSlice (⟨2, ![M, 100]⟩ : Shape) ![0, o] x h) p = seg o ho (rowOf x p) :=
  funext fun k => slice2_axis1_apply o x h p k ⟨o + k.val, by have := k.isLt; omega⟩ rfl

/-- Four M×100 arrays laid side by side along the columns — the drift d, an array n that is −d everywhere, and twice an
    array z that is 0 everywhere — are the field, when row p of d is the drift of state row p. -/
theorem concat_field {M : Nat} (state : (⟨2, ![M, 400]⟩ : Shape).Idx → EReal) (A : (⟨2, ![100, 100]⟩ : Shape).Idx → EReal)
    (g : (⟨1, ![100]⟩ : Shape).Idx → EReal) (d n z : (⟨2, ![M, 100]⟩ : Shape).Idx → EReal)
    (hd : ∀ (p : Fin M) (q : Fin 100), d (ix2 p q) = rowDrift (rowOf state p) A (fun k => g (ix1 k)) q)
    (hn : ∀ i, n i = -(d i)) (hz : ∀ i, z i = zero)
    (h : Shape.Concatenates (([⟨(⟨2, ![M, 100]⟩ : Shape), d⟩, ⟨(⟨2, ![M, 100]⟩ : Shape), n⟩, ⟨(⟨2, ![M, 100]⟩ : Shape), z⟩,
      ⟨(⟨2, ![M, 100]⟩ : Shape), z⟩] : List ((s : Shape) × (s.Idx → EReal))).map (·.1)) (⟨2, ![M, 400]⟩ : Shape) 1) :
    concatenate (⟨2, ![M, 400]⟩ : Shape) 1 [⟨(⟨2, ![M, 100]⟩ : Shape), d⟩, ⟨(⟨2, ![M, 100]⟩ : Shape), n⟩,
      ⟨(⟨2, ![M, 100]⟩ : Shape), z⟩, ⟨(⟨2, ![M, 100]⟩ : Shape), z⟩] h = field state A g := by
  funext j
  obtain ⟨p, c, rfl⟩ : ∃ (p : Fin M) (c : Fin 400), j = ix2 p c := ⟨j 0, j 1, eq_ix2 j⟩
  have hc : c.val < 400 := c.isLt
  have key := concatenate_ofFn_apply (α := EReal) (t := (⟨2, ![M, 400]⟩ : Shape)) (s₁ := (⟨2, ![M, 100]⟩ : Shape)) 1
    (fun k : Fin 4 => if k.val = 0 then d else if k.val = 1 then n else z) h rfl 100 rfl (ix2 p c)
    ⟨c.val / 100, by omega⟩ rfl (ix2 p ⟨c.val % 100, Nat.mod_lt _ (by norm_num)⟩) rfl
    (fun b hb => match b with
      | ⟨0, _⟩ => rfl
      | ⟨1, _⟩ => absurd rfl hb)
  refine key.trans ?_
  show (if c.val / 100 = 0 then d else if c.val / 100 = 1 then n else z) (ix2 p ⟨c.val % 100, Nat.mod_lt _ (by norm_num)⟩)
    = (if c.val / 100 = 0 then rowDrift (rowOf state p) A (fun k => g (ix1 k)) ⟨c.val % 100, Nat.mod_lt _ (by norm_num)⟩
      else if c.val / 100 = 1 then -(rowDrift (rowOf state p) A (fun k => g (ix1 k)) ⟨c.val % 100, Nat.mod_lt _ (by norm_num)⟩)
      else zero)
  by_cases h0 : c.val / 100 = 0
  · rw [if_pos h0, if_pos h0]; exact hd p _
  · rw [if_neg h0, if_neg h0]
    by_cases h1 : c.val / 100 = 1
    · rw [if_pos h1, if_pos h1, hn, hd]
    · rw [if_neg h1, if_neg h1]; exact hz _

/-! ## The vector unit's spelling of the drift -/

/-- From arrays X, E, W, T of M rows: the product of the saturations (narrowed to bf16) with A (narrowed to bf16)
    contracted on A's last axis into zero, −1 and 1 splat — entry (p, q) is the drift of unit q from row p of each. -/
theorem vector_drift {M : Nat} (X E W T : FVec Ideal (⟨2, ![M, 100]⟩ : Shape) .f32) (A : FVec Ideal (⟨2, ![100, 100]⟩ : Shape) .f32)
    (hb : FTy.bf16.bits < FTy.f32.bits) (p : Fin M) (q : Fin 100) :
    addf (addf (mulf (broadcast (⟨2, ![M, 100]⟩ : Shape) (Scalar.ofBits (F := Ideal) .f32 0xBF800000#32)) X)
        (matmul (DotDims.transposedRhs M 100 100) none
          (truncf .bf16 (divf (mulf X X) (addf (broadcast (⟨2, ![M, 100]⟩ : Shape) (Scalar.ofBits (F := Ideal) .f32 0x3F800000#32)) (mulf X X))) hb)
          (truncf .bf16 A hb) (constant (⟨2, ![M, 100]⟩ : Shape) .f32 0x00000000#32)))
      (mulf (mulf W (subf (addf X E) T))
        (divf (mulf X X) (addf (broadcast (⟨2, ![M, 100]⟩ : Shape) (Scalar.ofBits (F := Ideal) .f32 0x3F800000#32)) (mulf X X))))
      (ix2 p q)
    = drift (rowOf X p) (rowOf E p) (rowOf W p) (rowOf T p) A q := by
  show (negOne * X (ix2 p q)
      + FloatOps.matmul (DotDims.transposedRhs M 100 100) none
          (truncf .bf16 (divf (mulf X X) (addf (broadcast (⟨2, ![M, 100]⟩ : Shape) (Scalar.ofBits (F := Ideal) .f32 0x3F800000#32)) (mulf X X))) hb)
          (truncf .bf16 A hb) (constant (F := Ideal) (⟨2, ![M, 100]⟩ : Shape) .f32 0x00000000#32) (ix2 p q))
      + (W (ix2 p q) * ((X (ix2 p q) + E (ix2 p q)) - T (ix2 p q))) * sat (X (ix2 p q)) = _
  rw [matmul_transposed_zero_apply]
  rfl

/-! ## The host's spelling of the drift -/

/-- From arrays X, E, W, T of M rows: a plain dot_general of the saturations with the transposed coupling At, the
    constants as arrays that are −1 and 1 everywhere — entry (p, q) is the drift of unit q from row p of each. -/
theorem host_drift {M : Nat} (X E W T : FVec Ideal (⟨2, ![M, 100]⟩ : Shape) .f32) (At A : FVec Ideal (⟨2, ![100, 100]⟩ : Shape) .f32)
    (hAt : ∀ k q : Fin 100, At (ix2 k q) = A (ix2 q k))
    (oneV negV : FVec Ideal (⟨2, ![M, 100]⟩ : Shape) .f32) (h1 : ∀ i, oneV i = one) (hm : ∀ i, negV i = negOne)
    (p : Fin M) (q : Fin 100) :
    addf (addf (mulf negV X)
        (Host.dotGeneral (F := Ideal) (DotDims.plain M 100 100) none (Host.divf (F := Ideal) (mulf X X) (addf oneV (mulf X X))) At))
      (mulf (mulf W (subf (addf X E) T)) (Host.divf (F := Ideal) (mulf X X) (addf oneV (mulf X X))))
      (ix2 p q)
    = drift (rowOf X p) (rowOf E p) (rowOf W p) (rowOf T p) A q := by
  show (negV (ix2 p q) * X (ix2 p q)
      + FloatOps.dotGeneral (DotDims.plain M 100 100) none .single
          (Host.divf (F := Ideal) (mulf X X) (addf oneV (mulf X X))) At (ix2 p q))
      + (W (ix2 p q) * ((X (ix2 p q) + E (ix2 p q)) - T (ix2 p q)))
        * Ideal.div (X (ix2 p q) * X (ix2 p q)) (oneV (ix2 p q) + X (ix2 p q) * X (ix2 p q)) = _
  rw [dotGeneral_plain_apply, hm, h1]
  unfold drift
  refine congrArg₂ (· + ·) (congrArg (negOne * X (ix2 p q) + ·) ?_) rfl
  unfold rowDot rowDotT rowOf
  refine Finset.sum_congr rfl fun k _ => ?_
  show Ideal.div (X (ix2 p k) * X (ix2 p k)) (oneV (ix2 p k) + X (ix2 p k) * X (ix2 p k)) * At (ix2 k q) = sat (X (ix2 p k)) * A (ix2 q k)
  rw [h1, hAt]
  rfl

/-- The host's negation of a value is the vector unit's 0 − value. -/
theorem zero_sub_eq_neg (x : EReal) : zero - x = -x := by
  show Ideal.ofBits .f32 0x00000000#32 - x = -x
  rw [Ideal.ofBits_zero_f32, zero_sub]

end Cert.Drift

end
-- ==== Proof.KernelPayload.lean ====
/-
  What the kernel's body stores, as a function of the blocks it loads.

  The body loads a block of 2048 state rows, the target vector and the coupling matrix, cuts the positions, errors and
  gains out of the block's columns, broadcasts the target down the rows, computes the drift with the vector unit's
  operations, and stores the four runs [dx, 0 − dx, 0, 0] side by side.  That stored block is the field of the loaded
  block of rows: each cut is the matching run of a row, the broadcast target is the target at every row, the product
  into a zero accumulator is the sum over the units, and 0 − dx is −dx.
-/
import proofs.«124264_j2465311228659_1_alg».proof.Proof.Gen.KernelIdeal.Skeleton
import proofs.«124264_j2465311228659_1_alg».proof.Proof.Drift

noncomputable section

namespace Cert.KernelIdeal.Payload

open Cert.KernelIdeal Cert.KernelIdeal.Gen
open Idealize.ShloMosaic Idealize.ShloMosaic.ValueIdx Cert.RowDot Cert.Drift

/-- Every row of the target, recast as one row and broadcast down 2048 rows, is the target. -/
theorem target_rows (g : FVec Ideal S100 .f32) (p : Fin 2048) :
    rowOf (broadcastTo S2048x100 (shapeCast S1x100 g shapeCasts_S100_S1x100) broadcasts_S1x100_S2048x100) p
      = fun k => g (ix1 k) :=
  funext fun k => (broadcastTo_1b_ab_apply _ broadcasts_S1x100_S2048x100 p k).trans
    (shapeCast_a_1a_apply g shapeCasts_S100_S1x100 0 k)

/-- The stored block is the field of the loaded block of state rows, the coupling matrix and the target. -/
theorem stored_eq_field (x : Vec Ideal S2048x400 .f32) (g : Vec Ideal S100 .f32) (A : Vec Ideal S100x100 .f32) :
    k0_pay1 x g A = field x A g := by
  unfold k0_pay1
  refine concat_field x A g _ _ _ ?_ ?_ ?_ _
  · intro p q
    refine (vector_drift _ _ _ _ A bitsLt_bf16_f32 p q).trans ?_
    have e0 := rowOf_slice 0 (by norm_num) x slices_S2048x400_o0_0_S2048x100 p
    have e1 := rowOf_slice 100 (by norm_num) x slices_S2048x400_o0_100_S2048x100 p
    have e3 := rowOf_slice 300 (by norm_num) x slices_S2048x400_o0_300_S2048x100 p
    have e4 := target_rows g p
    rw [e0, e1, e3, e4]
    rfl
  · intro i
    exact zero_sub_eq_neg _
  · intro i
    rfl

end Cert.KernelIdeal.Payload

end
-- ==== Proof.FieldOfBlocks.lean ====
/-
  From what each grid point writes back to the whole output array.

  The grid has 64 points; point t stages rows 2048·t … 2048·t + 2047 of the state (all 400 columns), the whole coupling
  matrix and the whole target, and writes back the same rows of the output.  What it writes is the field of its block
  of rows; an entry of the field sees the state only through its own row, and row y of block t is row 2048·t + y of
  the array, so point t writes block t of the field of the WHOLE state.  Every row lies in exactly one block
  (row r in block r / 2048), so the blocks cover the array and the output ends holding the field of the arguments.
-/
import proofs.«124264_j2465311228659_1_alg».proof.Proof.Gen.KernelIdeal.Value
import proofs.«124264_j2465311228659_1_alg».proof.Proof.KernelPayload

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.Drift

variable (m : (ℓ : Loc nD τ sig) → Buf (Elt Ideal) ℓ) (ρ : Dev nD → PrngReg)

theorem origin2 : (![0, 0] : Fin 2 → Nat) = fun _ => 0 := funext fun a => by fin_cases a <;> rfl
theorem origin1 : (![0] : Fin 1 → Nat) = fun _ => 0 := funext fun a => by fin_cases a <;> rfl

/-- The index maps, decided over the 64 grid points: the state's block moves with the output's along the rows, every
    other block index is 0. -/
theorem index_maps : ∀ t : Fin cfg0.N, win0_0.index t (0 : Fin 2) = win0_3.index t (0 : Fin 2)
    ∧ win0_0.index t (1 : Fin 2) = 0
    ∧ win0_3.index t (1 : Fin 2) = 0
    ∧ win0_1.index t (0 : Fin 2) = 0
    ∧ win0_1.index t (1 : Fin 2) = 0
    ∧ win0_2.index t (0 : Fin 1) = 0 :=
  (by decide +kernel : ∀ t : Fin grid0.N, _)

/-- Every one of the 64 row blocks is some point's. -/
theorem every_block : ∀ b : Fin 64, ∃ t : Fin cfg0.N, win0_3.index t = ![b.val, 0] :=
  (by decide +kernel : ∀ b : Fin 64, ∃ t : Fin grid0.N, win0_3.index t = ![b.val, 0])

/-- An entry of the field of a block of rows, beside the coupling matrix and the target as loaded, is the entry of the
    field of the whole arrays in the same column and the matching row. -/
theorem block_entry (s : S131072x400.Idx → Elt Ideal .f32) (A : S100x100.Idx → Elt Ideal .f32) (g : S100.Idx → Elt Ideal .f32)
    (sb : S2048x400.Idx → Elt Ideal .f32) (Ab : S100x100.Idx → Elt Ideal .f32) (gb : S100.Idx → Elt Ideal .f32)
    (y : S2048x400.Idx) (i : S131072x400.Idx)
    (hs : ∀ d : Fin 400, sb (ix2 (y 0) d) = s (ix2 (i 0) d)) (hA : Ab = A) (hg : gb = g) (hcol : (i 1).val = (y 1).val) :
    field sb Ab gb y = field s A g i := by
  subst hA hg
  exact field_block s sb Ab gb y i hs hcol

/-- WHAT POINT t WRITES BACK is block t of the field of the argument arrays as the region finds them. -/
theorem flushed_eq (c : Dev nD) (t : Fin cfg0.N) :
    (dats m 0 c).flushed 3 t
      = ((cfg0.win 3).blk t).view.read (Elt Ideal) (field (V m c main_arg0) (V m c main_arg1) (V m c main_arg2)) := by
  show (cfg0.win 3).cut (grid0.coords t) ((dats m 0 c).after 3 t) = _
  rw [after0_3]
  unfold out0_3
  rw [View.canon_unit_zero origin2]
  simp only [View.ld_unit_zero (S := S2048x400) origin2, View.ld_unit_zero (S := S100x100) origin2,
    View.ld_unit_zero (S := S100) origin1]
  rw [Payload.stored_eq_field]
  obtain ⟨e0, e1, e2, e3, e4, e5⟩ := index_maps t
  funext y
  show field (iblk m c 0 t) (iblk m c 1 t) (iblk m c 2 t) y
    = field (V m c main_arg0) (V m c main_arg1) (V m c main_arg2) (((cfg0.win 3).blk t).view.emb y)
  refine block_entry _ _ _ _ _ _ y _ ?_ ?_ ?_ ?_
  · intro d
    show V m c main_arg0 (((cfg0.win 0).blk t).view.emb (ix2 (y 0) d))
      = V m c main_arg0 (ix2 ((((cfg0.win 3).blk t).view.emb y) 0) d)
    refine congrArg (V m c main_arg0) (funext fun a => Fin.ext ?_)
    match a with
    | ⟨0, _⟩ =>
      show win0_0.index t (0 : Fin 2) * 2048 + 1 * (y 0).val = win0_3.index t (0 : Fin 2) * 2048 + 1 * (y 0).val
      omega
    | ⟨1, _⟩ =>
      show win0_0.index t (1 : Fin 2) * 400 + 1 * d.val = d.val
      omega
  · funext z
    show V m c main_arg1 (((cfg0.win 1).blk t).view.emb z) = V m c main_arg1 z
    refine congrArg (V m c main_arg1) (funext fun a => Fin.ext ?_)
    match a with
    | ⟨0, _⟩ =>
      show win0_1.index t (0 : Fin 2) * 100 + 1 * (z 0).val = (z 0).val
      omega
    | ⟨1, _⟩ =>
      show win0_1.index t (1 : Fin 2) * 100 + 1 * (z 1).val = (z 1).val
      omega
  · funext z
    show V m c main_arg2 (((cfg0.win 2).blk t).view.emb z) = V m c main_arg2 z
    refine congrArg (V m c main_arg2) (funext fun a => Fin.ext ?_)
    match a with
    | ⟨0, _⟩ =>
      show win0_2.index t (0 : Fin 1) * 100 + 1 * (z 0).val = (z 0).val
      omega
  · show win0_3.index t (1 : Fin 2) * 400 + 1 * (y 1).val = (y 1).val
    omega

/-- An index of the array is in point t's block iff each coordinate is in the block's range on its axis. -/
theorem mem_blk (t : Fin cfg0.N) (i : S131072x400.Idx) :
    i ∈ ((cfg0.win 3).blk t).view.set ↔ ∀ a : Fin 2, win0_3.index t a * S2048x400.size a ≤ (i a).val
      ∧ (i a).val < win0_3.index t a * S2048x400.size a + S2048x400.size a := by
  show i ∈ ((View.whole main_v0).slice (win0_3.rect t)).set ↔ _
  rw [View.set_slice_whole, Rect.mem_set_unit]
  exact Iff.rfl

/-- Every index of the output lies in some point's block: row r in the block of the point with block index r / 2048. -/
theorem covered (i : S131072x400.Idx) :
    ∃ t : Fin cfg0.N, (cfg0.win 3).flush t = true ∧ i ∈ ((cfg0.win 3).blk t).view.set := by
  have hi0 : (i 0).val < 131072 := (i 0).isLt
  have hi1 : (i 1).val < 400 := (i 1).isLt
  obtain ⟨t, ht⟩ := every_block ⟨(i 0).val / 2048, by omega⟩
  have q0 : win0_3.index t (0 : Fin 2) = (i 0).val / 2048 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 2048 ≤ (i 0).val ∧ (i 0).val < win0_3.index t (0 : Fin 2) * 2048 + 2048
    omega
  | ⟨1, _⟩ =>
    show win0_3.index t (1 : Fin 2) * 400 ≤ (i 1).val ∧ (i 1).val < win0_3.index t (1 : Fin 2) * 400 + 400
    omega

/-- THE ARRAY after the run is the field of the argument arrays. -/
theorem final (c : Dev nD) :
    (dats m 0 c).arrAt 3 cfg0.N
      = field (m ((c : Thread nD τ).loc main_arg0)) (m ((c : Thread nD τ).loc main_arg1)) (m ((c : Thread nD τ).loc main_arg2)) :=
  (dats m 0 c).arrAt_eq_of_cover 3 _ (fun t _ => flushed_eq m c t) covered

/-- The kernel's run: the output array ends at the field of the arguments, the arguments unchanged. -/
theorem run : θ_run defs (onTc (τ := τ) (main (F := Ideal))) ⟨m, fun _ => 0, ρ⟩ fun r => ∀ c : Dev nD,
      r.2.mem ((c : Thread nD τ).loc main_v0)
        = field (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.ReferenceValue.lean ====
/-
  What the reference computes, as a function of its arguments.

  The reference cuts the positions, errors and gains out of the state's columns, broadcasts the target down the rows,
  transposes the coupling matrix and multiplies the saturations by it with a plain dot_general, and lays the four runs
  [dx, −dx, 0, 0] side by side.  Its result is the field of the whole state: each cut is the matching run of a row, the
  broadcast target is the target at every row, the transposed matrix read at (k, q) is the matrix at (q, k), and the
  broadcast constants hold 1, −1 and 0 everywhere.
-/
import proofs.«124264_j2465311228659_1_alg».proof.Proof.Gen.ReferenceIdeal.Read
import proofs.«124264_j2465311228659_1_alg».proof.Proof.Drift

noncomputable section

namespace Cert.ReferenceIdeal.RefValue

open Cert.ReferenceIdeal Cert.ReferenceIdeal.Gen Cert.ReferenceIdeal.Read
open Idealize.ShloMosaic Idealize.ShloMosaic.ValueIdx Cert.RowDot Cert.Drift

/-- The broadcast constant 1.0 holds 1 everywhere. -/
theorem ones (i : S131072x100.Idx) : val_main_v10 (F := Ideal) i = one := by
  rw [val_main_v10_apply, val_main_cst_apply]; rfl

/-- The broadcast constant −1.0 holds −1 everywhere. -/
theorem minus_ones (i : S131072x100.Idx) : val_main_v13 (F := Ideal) i = negOne := by
  rw [val_main_v13_apply, val_main_cst_0_apply]; rfl

/-- The broadcast constant 0.0 holds 0 everywhere. -/
theorem zeros (i : S131072x100.Idx) : val_main_v20 (F := Ideal) i = zero := by
  rw [val_main_v20_apply, val_main_cst_1_apply]; rfl

/-- Every row of the target, broadcast to one row and then down the rows, is the target. -/
theorem target_rows (g : (⟨S100, .f32⟩ : BufTy).Contents (Elt Ideal)) (p : Fin 131072) :
    rowOf (val_main_v5 (F := Ideal) g) p = fun k => g (ix1 k) := by
  funext k
  show val_main_v5 (F := Ideal) g (ix2 p k) = g (ix1 k)
  rw [val_main_v5_apply, val_main_v4_apply]
  exact congrArg g (funext fun a => match a with | ⟨0, _⟩ => rfl)

/-- The transposed coupling matrix at (k, q) is the matrix at (q, k). -/
theorem transposed (A : (⟨S100x100, .f32⟩ : BufTy).Contents (Elt Ideal)) (k q : Fin 100) :
    val_main_v15 (F := Ideal) A (ix2 k q) = A (ix2 q k) :=
  transpose_ix2_apply A transposes_S100x100_S100x100_1_0 k q

/-- The reference's result is the field of its arguments. -/
theorem result_eq_field (x : (⟨S131072x400, .f32⟩ : BufTy).Contents (Elt Ideal)) (A : (⟨S100x100, .f32⟩ : BufTy).Contents (Elt Ideal))
    (g : (⟨S100, .f32⟩ : BufTy).Contents (Elt Ideal)) :
    val_main_v22 (F := Ideal) x A g = field x A g := by
  unfold val_main_v22
  refine concat_field x A g _ _ _ ?_ ?_ ?_ _
  · intro p q
    refine (host_drift (val_main_v0 (F := Ideal) x) (val_main_v1 (F := Ideal) x) (val_main_v2 (F := Ideal) x) (val_main_v5 (F := Ideal) g)
      (val_main_v15 (F := Ideal) A) A (transposed A) (val_main_v10 (F := Ideal)) (val_main_v13 (F := Ideal)) ones minus_ones p q).trans ?_
    have e0 : rowOf (val_main_v0 (F := Ideal) x) p = seg 0 (by norm_num) (rowOf x p) :=
      rowOf_slice 0 (by norm_num) x slices_S131072x400_S131072x100_0_0 p
    have e1 : rowOf (val_main_v1 (F := Ideal) x) p = seg 100 (by norm_num) (rowOf x p) :=
      rowOf_slice 100 (by norm_num) x slices_S131072x400_S131072x100_0_100 p
    have e3 : rowOf (val_main_v2 (F := Ideal) x) p = seg 300 (by norm_num) (rowOf x p) :=
      rowOf_slice 300 (by norm_num) x slices_S131072x400_S131072x100_0_300 p
    have e4 := target_rows g p
    rw [e0, e1, e3, e4]
    rfl
  · intro i
    rfl
  · exact zeros

end Cert.ReferenceIdeal.RefValue

end
-- ==== Proof.lean ====
/-
  The kernel and its reference compute the same field of a bank of saturating units.

  Each of the 131072 rows of the state holds, for 100 units, positions x (columns 0–99), estimation errors e (columns
  100–199), an unused run, and control gains w (columns 300–399).  With the 100×100 coupling matrix A and the target g,
      s(k) = x(k)² / (1 + x(k)²),    u(q) = w(q) · ((x(q) + e(q)) − g(q)),
      dx(q) = (−1 · x(q) + Σ_k s(k) · A(q, k)) + u(q) · s(q),
  and the output row is [dx, −dx, 0, 0].

  The kernel computes this 2048 rows at a time: 64 grid points, each staging its block of state rows beside the whole
  of A and g, each writing back the same rows of the output.  An output entry sees the state only through its own row,
  so a block of the output is the field of the block of rows it was computed from, the blocks tile the output, and
  the output array ends holding the field of the whole state.  The reference computes the field whole.

  The two programs spell three steps differently, none of which changes an exact value.  The kernel narrows the
  saturations and A to bf16 before the product: a change of format is the identity on exact values.  The kernel
  contracts A on its last axis into a zero accumulator, the reference transposes A and takes a plain dot_general:
  both are the sum over k of s(k) · A(q, k), read in the same order, so nothing is commuted across an infinity.  The
  kernel negates by 0 − dx, the reference by −dx: equal on every extended real.  So no entry has to be finite, and
  the precondition is not opened.

  The idealized kernel is the kernel's own text read at exact values (the pass rewrote nothing), so there is nothing
  to preserve; the three programs' runs — termination, no fault, arguments unchanged — are the generated ones.
-/
import proofs.«124264_j2465311228659_1_alg».proof.Defs
import proofs.«124264_j2465311228659_1_alg».proof.Proof.Gen.Kernel
import proofs.«124264_j2465311228659_1_alg».proof.Proof.Gen.Kernel.Skeleton
import proofs.«124264_j2465311228659_1_alg».proof.Proof.Gen.Kernel.Launch
import proofs.«124264_j2465311228659_1_alg».proof.Proof.Gen.Kernel.Points
import proofs.«124264_j2465311228659_1_alg».proof.Proof.Gen.Kernel.Frame
import proofs.«124264_j2465311228659_1_alg».proof.Proof.Gen.KernelIdeal
import proofs.«124264_j2465311228659_1_alg».proof.Proof.Gen.KernelIdeal.Skeleton
import proofs.«124264_j2465311228659_1_alg».proof.Proof.Gen.KernelIdeal.Launch
import proofs.«124264_j2465311228659_1_alg».proof.Proof.Gen.KernelIdeal.Points
import proofs.«124264_j2465311228659_1_alg».proof.Proof.Gen.KernelIdeal.Frame
import proofs.«124264_j2465311228659_1_alg».proof.Proof.Gen.ReferenceIdeal
import proofs.«124264_j2465311228659_1_alg».proof.Proof.Gen.Pre_finite_inputs
import proofs.«124264_j2465311228659_1_alg».proof.Proof.Gen.KernelIdeal.Value
import proofs.«124264_j2465311228659_1_alg».proof.Proof.Gen.ReferenceIdeal.Run
import proofs.«124264_j2465311228659_1_alg».proof.Proof.Gen.ReferenceIdeal.Read
import proofs.«124264_j2465311228659_1_alg».proof.Proof.FieldOfBlocks
import proofs.«124264_j2465311228659_1_alg».proof.Proof.ReferenceValue
import Idealize.ShloMosaic.Adequacy
import Idealize.ShloMosaic.Init

noncomputable section

namespace Cert.Proof

open Idealize.ShloMosaic Idealize.ShloMosaic.TcCoe Idealize.SL.Sem

/-- The kernel as printed runs, faults nowhere and leaves its arguments as they were. -/
theorem frame_kernel : Cert.frame_Kernel := fun m ρ _ => Cert.Kernel.Gen.frame m ρ

/-- So does the kernel read at exact values. -/
theorem frame_kernelIdeal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, the kernel's output array and the reference's result both end at the
    field of the arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefValue.result_eq_field,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
